-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x768 : Shape := ⟨3, ![4, 512, 768]⟩
abbrev S4x64x512 : Shape := ⟨3, ![4, 64, 512]⟩
abbrev S4x64 : Shape := ⟨2, ![4, 64]⟩
abbrev S768x1536 : Shape := ⟨2, ![768, 1536]⟩
abbrev S768 : Shape := ⟨1, ![768]⟩
abbrev S_ : Shape := ⟨0, ![]⟩

class Facts : Prop where
  bcast_S_S4x512x768 : S_.BroadcastsInDim S4x512x768 (![] : Fin 0 → Fin S4x512x768.rank)
  reducesTo_S4x512x768_S_d0_1_2 : S4x512x768.ReducesTo [0, 1, 2] S_
  h_S_ : 0 < S_.numel
  bcast_S_S4x64x512 : S_.BroadcastsInDim S4x64x512 (![] : Fin 0 → Fin S4x64x512.rank)
  reducesTo_S4x64x512_S_d0_1_2 : S4x64x512.ReducesTo [0, 1, 2] S_
  bcast_S_S4x64 : S_.BroadcastsInDim S4x64 (![] : Fin 0 → Fin S4x64.rank)
  reducesTo_S4x64_S_d0_1 : S4x64.ReducesTo [0, 1] S_
  bcast_S_S768x1536 : S_.BroadcastsInDim S768x1536 (![] : Fin 0 → Fin S768x1536.rank)
  reducesTo_S768x1536_S_d0_1 : S768x1536.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_v13 : IVec S_ 1) (main_v16 : IVec S768x1536 1) : IVec S_ 1 :=
  let main_c_5 : IVec S_ 1 := constantI S_ 1 1#1
  let main_v17 : IVec S_ 1 := (fun x v => Host.reduce IntOp.andi x v reducesTo_S768x1536_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : FVec F S4x512x768 .f32) (main_arg1 : FVec F S4x64x512 .f32) (main_arg2 : FVec F S4x64 .f32) (main_arg3 : FVec F S768x1536 .f32) (main_arg4 : FVec F S768 .f32) : IVec S_ 1 :=
  let main_v0 : FVec F S4x512x768 .f32 := Host.absf main_arg0
  let main_cst : FVec F S_ .f32 := constant S_ .f32 0x7F800000#32
  let main_v1 : FVec F S4x512x768 .f32 := broadcastInDim S4x512x768 ![] bcast_S_S4x512x768 main_cst
  let main_v2 : IVec S4x512x768 1 := cmpf .olt main_v0 main_v1
  let main_c : IVec S_ 1 := constantI S_ 1 1#1
  let main_v3 : IVec S_ 1 := (fun x v => Host.reduce IntOp.andi x v reducesTo_S4x512x768_S_d0_1_2 h_S_) main_v2 main_c
  let main_v4 : FVec F S4x64x512 .f32 := Host.absf main_arg1
  let main_cst_0 : FVec F S_ .f32 := constant S_ .f32 0x7F800000#32
  let main_v5 : FVec F S4x64x512 .f32 := broadcastInDim S4x64x512 ![] bcast_S_S4x64x512 main_cst_0
  let main_v6 : IVec S4x64x512 1 := cmpf .olt main_v4 main_v5
  let main_c_1 : IVec S_ 1 := constantI S_ 1 1#1
  let main_v7 : IVec S_ 1 := (fun x v => Host.reduce IntOp.andi x v reducesTo_S4x64x512_S_d0_1_2 h_S_) main_v6 main_c_1
  let main_v8 : IVec S_ 1 := andi main_v3 main_v7
  let main_v9 : FVec F S4x64 .f32 := Host.absf main_arg2
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  let main_v14 : FVec F S768x1536 .f32 := Host.absf main_arg3
  let main_cst_4 : FVec F S_ .f32 := constant S_ .f32 0x7F800000#32
  let main_v15 : FVec F S768x1536 .f32 := broadcastInDim S768x1536 ![] bcast_S_S768x1536 main_cst_4
  let main_v16 : IVec S768x1536 1 := cmpf .olt main_v14 main_v15
  fn_part1 (F := F) main_arg4 main_v13 main_v16
-- ==== Kernel.lean ====
abbrev S4x512x768 : Shape := ⟨3, ![4, 512, 768]⟩
abbrev S4x64x512 : Shape := ⟨3, ![4, 64, 512]⟩
abbrev S4x64 : Shape := ⟨2, ![4, 64]⟩
abbrev S768x1536 : Shape := ⟨2, ![768, 1536]⟩
abbrev S768 : Shape := ⟨1, ![768]⟩
abbrev S4x512x64 : Shape := ⟨3, ![4, 512, 64]⟩
abbrev S4x64x768 : Shape := ⟨3, ![4, 64, 768]⟩
abbrev S1x64x768 : Shape := ⟨3, ![1, 64, 768]⟩
abbrev S1x64x64 : Shape := ⟨3, ![1, 64, 64]⟩
abbrev S64x768 : Shape := ⟨2, ![64, 768]⟩
abbrev S64x64 : Shape := ⟨2, ![64, 64]⟩
abbrev S64x64x1 : Shape := ⟨3, ![64, 64, 1]⟩
abbrev S64x1x768 : Shape := ⟨3, ![64, 1, 768]⟩
abbrev S64x64x768 : Shape := ⟨3, ![64, 64, 768]⟩
abbrev S1x64 : Shape := ⟨2, ![1, 64]⟩
abbrev S64 : Shape := ⟨1, ![64]⟩
abbrev S64x1 : Shape := ⟨2, ![64, 1]⟩
abbrev S64x1536 : Shape := ⟨2, ![64, 1536]⟩
abbrev S1x768 : Shape := ⟨2, ![1, 768]⟩

abbrev nBuf : Space → Nat
  | .hbm => 7
  | .vmem => 11
  | .smem => 0
  | _ => 0

abbrev bufTy : (tb : Table) → Fin (tcTables nBuf tb) → BufTy
  | .hbm, ⟨0, _⟩ => ⟨S4x512x768, .f32⟩
  | .hbm, ⟨1, _⟩ => ⟨S4x64x512, .f32⟩
  | .hbm, ⟨2, _⟩ => ⟨S4x64, .f32⟩
  | .hbm, ⟨3, _⟩ => ⟨S768x1536, .f32⟩
  | .hbm, ⟨4, _⟩ => ⟨S768, .f32⟩
  | .hbm, ⟨5, _⟩ => ⟨S4x512x64, .f32⟩
  | .hbm, ⟨6, _⟩ => ⟨S4x64x768, .f32⟩
  | .local _ .vmem, ⟨0, _⟩ => ⟨S1x64x768, .f32⟩
  | .local _ .vmem, ⟨1, _⟩ => ⟨S1x64x768, .f32⟩
  | .local _ .vmem, ⟨2, _⟩ => ⟨S1x64x64, .f32⟩
  | .local _ .vmem, ⟨3, _⟩ => ⟨S1x64x64, .f32⟩
  | .local _ .vmem, ⟨4, _⟩ => ⟨S4x64, .f32⟩
  | .local _ .vmem, ⟨5, _⟩ => ⟨S768x1536, .f32⟩
  | .local _ .vmem, ⟨6, _⟩ => ⟨S768, .f32⟩
  | .local _ .vmem, ⟨7, _⟩ => ⟨S1x64x768, .f32⟩
  | .local _ .vmem, ⟨8, _⟩ => ⟨S1x64x768, .f32⟩
  | .local _ .vmem, ⟨9, _⟩ => ⟨S64x768, .f32⟩
  | .local _ .vmem, ⟨10, _⟩ => ⟨S64x768, .f32⟩
  | _, _ => ⟨S4x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v24 : BitVec 1 := Scalar.cmpi .eq arg1 c7_i32
  let v25 : BitVec 32 := Scalar.extui v24
  let c0_i32_15 : BitVec 32 := 0#32
  let v26 : BitVec 1 := Scalar.cmpi .ne v25 c0_i32_15
  v26

def k0_off1 (i : grid0.Coords) : Fin 2 → Nat :=
  let arg0 : BitVec 32 := BitVec.ofNat 32 (i 0).val
  let v27 : Index := Scalar.indexCast arg0
  let c0_16 : Index := 0#32
  ![v27.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x64x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  transposes_S4x64x512_S4x512x64_0_2_1 : S4x64x512.Transposes [0, 2, 1] S4x512x64
  inb_S64x768_S64x768_0_0 : ∀ a, (![0, 0] : Fin 2 → Nat) a + S64x768.size a ≤ S64x768.size a
  h_S64x768 : 0 < S64x768.numel
  shapeCasts_S64x768_S64x768 : S64x768.ShapeCasts S64x768
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  inb_S1x64x768_S1x64x768_0_0_0 : ∀ a, (![0, 0, 0] : Fin 3 → Nat) a + S1x64x768.size a ≤ S1x64x768.size a
  h_S1x64x768 : 0 < S1x64x768.numel
  shapeCasts_S1x64x768_S64x768 : S1x64x768.ShapeCasts S64x768
  shapeCasts_S64x64_S64x64x1 : S64x64.ShapeCasts S64x64x1
  shapeCasts_S64x768_S64x1x768 : S64x768.ShapeCasts S64x1x768
  broadcasts_S64x64x1_S64x64x768 : S64x64x1.Broadcasts S64x64x768
  broadcasts_S64x1x768_S64x64x768 : S64x1x768.Broadcasts S64x64x768
  reduces_S64x64x768_S64x768 : S64x64x768.Reduces [0] S64x768
  h_S1x64 : 0 < S1x64.numel
  shapeCasts_S1x64_S64 : S1x64.ShapeCasts S64
  shapeCasts_S64_S64x1 : S64.ShapeCasts S64x1
  broadcasts_S64x1_S64x768 : S64x1.Broadcasts S64x768
  concatenates_S64x768_S64x768_S64x1536_d1 : Shape.Concatenates [S64x768, S64x768] S64x1536 1
  inb_S768x1536_S768x1536_0_0 : ∀ a, (![0, 0] : Fin 2 → Nat) a + S768x1536.size a ≤ S768x1536.size a
  h_S768x1536 : 0 < S768x1536.numel
  inb_S768_S768_0 : ∀ a, (![0] : Fin 1 → Nat) a + S768.size a ≤ S768.size a
  h_S768 : 0 < S768.numel
  shapeCasts_S768_S1x768 : S768.ShapeCasts S1x768
  broadcasts_S1x768_S64x768 : S1x768.Broadcasts S64x768
  shapeCasts_S64x768_S1x64x768 : S64x768.ShapeCasts S1x64x768
  dot_S64x1536_S768x1536_S64x768_1_1_0_0_n_n_wf : DotDims.WF S64x1536 S768x1536 S64x768 [1] [1] [0] [0] [] []
  hrank0 : 0 < grid0.rank
  k0_off1_inb : ∀ i : grid0.Coords, ∀ (k0_h2 : k0_cond2 i = 1#1), ∀ a, (k0_off1 i) a + S1x64.size a ≤ S4x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x768.size a ≤ S4x512x768.size a
  hwx0_0 : ∀ i : grid0.Coords, EltTy.bits .f32 = 32 ∨ (Rect.block (s := S4x512x768) S1x64x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S4x512x64.size a
  hwx0_1 : ∀ i : grid0.Coords, EltTy.bits .f32 = 32 ∨ (Rect.block (s := S4x512x64) S1x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x64.size a ≤ S4x64.size a
  hwx0_2 : ∀ i : grid0.Coords, EltTy.bits .f32 = 32 ∨ (Rect.block (s := S4x64) S4x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x1536.size a ≤ S768x1536.size a
  hwx0_3 : ∀ i : grid0.Coords, EltTy.bits .f32 = 32 ∨ (Rect.block (s := S768x1536) S768x1536.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768.size a ≤ S768.size a
  hwx0_4 : ∀ i : grid0.Coords, EltTy.bits .f32 = 32 ∨ (Rect.block (s := S768) S768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x768.size a ≤ S4x64x768.size a
  hwx0_5 : ∀ i : grid0.Coords, EltTy.bits .f32 = 32 ∨ (Rect.block (s := S4x64x768) S1x64x768.size (cc0_transform_5 i) (hinb0_5 i)).WholeWords (EltTy.packing .f32)

variable [Facts₀]

def dot_S64x1536_S768x1536_S64x768_1_1_0_0_n_n : DotDims S64x1536 S768x1536 S64x768 where
  lhsContracting := [1]
  rhsContracting := [1]
  lhsNonContracting := [0]
  rhsNonContracting := [0]
  lhsBatch := []
  rhsBatch := []
  wf := dot_S64x1536_S768x1536_S64x768_1_1_0_0_n_n_wf

abbrev win0_0 : Pipeline.Window sig grid0 :=
  Pipeline.Window.ofSpec (Memref.whole main_arg0) S1x64x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S768x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x64x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x512x768 : Shape := ⟨3, ![4, 512, 768]⟩
abbrev S4x64x512 : Shape := ⟨3, ![4, 64, 512]⟩
abbrev S4x64 : Shape := ⟨2, ![4, 64]⟩
abbrev S768x1536 : Shape := ⟨2, ![768, 1536]⟩
abbrev S768 : Shape := ⟨1, ![768]⟩
abbrev S4x64x512x1 : Shape := ⟨4, ![4, 64, 512, 1]⟩
abbrev S4x1x512x768 : Shape := ⟨4, ![4, 1, 512, 768]⟩
abbrev S4x64x512x768 : Shape := ⟨4, ![4, 64, 512, 768]⟩
abbrev S_ : Shape := ⟨0, ![]⟩
abbrev S4x64x768 : Shape := ⟨3, ![4, 64, 768]⟩
abbrev S4x64x1 : Shape := ⟨3, ![4, 64, 1]⟩
abbrev S4x64x1536 : Shape := ⟨3, ![4, 64, 1536]⟩
abbrev S1x1x768 : Shape := ⟨3, ![1, 1, 768]⟩

abbrev nBuf : Space → Nat
  | .hbm => 22
  | .vmem => 0
  | .smem => 0
  | _ => 0

abbrev bufTy : (tb : Table) → Fin (tcTables nBuf tb) → BufTy
  | .hbm, ⟨0, _⟩ => ⟨S4x512x768, .f32⟩
  | .hbm, ⟨1, _⟩ => ⟨S4x64x512, .f32⟩
  | .hbm, ⟨2, _⟩ => ⟨S4x64, .f32⟩
  | .hbm, ⟨3, _⟩ => ⟨S768x1536, .f32⟩
  | .hbm, ⟨4, _⟩ => ⟨S768, .f32⟩
  | .hbm, ⟨5, _⟩ => ⟨S4x64x512x1, .f32⟩
  | .hbm, ⟨6, _⟩ => ⟨S4x1x512x768, .f32⟩
  | .hbm, ⟨7, _⟩ => ⟨S4x64x512x768, .f32⟩
  | .hbm, ⟨8, _⟩ => ⟨S4x64x512x768, .f32⟩
  | .hbm, ⟨9, _⟩ => ⟨S4x64x512x768, .f32⟩
  | .hbm, ⟨10, _⟩ => ⟨S_, .f32⟩
  | .hbm, ⟨11, _⟩ => ⟨S4x64x768, .f32⟩
  | .hbm, ⟨12, _⟩ => ⟨S_, .f32⟩
  | .hbm, ⟨13, _⟩ => ⟨S4x64x768, .f32⟩
  | .hbm, ⟨14, _⟩ => ⟨S4x64x1, .f32⟩
  | .hbm, ⟨15, _⟩ => ⟨S4x64x768, .f32⟩
  | .hbm, ⟨16, _⟩ => ⟨S4x64x768, .f32⟩
  | .hbm, ⟨17, _⟩ => ⟨S4x64x1536, .f32⟩
  | .hbm, ⟨18, _⟩ => ⟨S4x64x768, .f32⟩
  | .hbm, ⟨19, _⟩ => ⟨S1x1x768, .f32⟩
  | .hbm, ⟨20, _⟩ => ⟨S4x64x768, .f32⟩
  | .hbm, ⟨21, _⟩ => ⟨S4x64x768, .f32⟩
  | _, _ => ⟨S4x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S4x64x512_S4x64x512x1_0_1_2 : S4x64x512.BroadcastsInDim S4x64x512x1 (![0, 1, 2] : Fin 3 → Fin S4x64x512x1.rank)
  bcast_S4x512x768_S4x1x512x768_0_2_3 : S4x512x768.BroadcastsInDim S4x1x512x768 (![0, 2, 3] : Fin 3 → Fin S4x1x512x768.rank)
  bcast_S4x64x512x1_S4x64x512x768_0_1_2_3 : S4x64x512x1.BroadcastsInDim S4x64x512x768 (![0, 1, 2, 3] : Fin 4 → Fin S4x64x512x768.rank)
  bcast_S4x1x512x768_S4x64x512x768_0_1_2_3 : S4x1x512x768.BroadcastsInDim S4x64x512x768 (![0, 1, 2, 3] : Fin 4 → Fin S4x64x512x768.rank)
  reducesTo_S4x64x512x768_S4x64x768_d2 : S4x64x512x768.ReducesTo [2] S4x64x768
  h_S_ : 0 < S_.numel
  bcast_S4x64_S4x64x1_0_1 : S4x64.BroadcastsInDim S4x64x1 (![0, 1] : Fin 2 → Fin S4x64x1.rank)
  bcast_S4x64x1_S4x64x768_0_1_2 : S4x64x1.BroadcastsInDim S4x64x768 (![0, 1, 2] : Fin 3 → Fin S4x64x768.rank)
  concatenates_S4x64x768_S4x64x768_S4x64x1536_d2 : Shape.Concatenates [S4x64x768, S4x64x768] S4x64x1536 2
  bcast_S768_S1x1x768_2 : S768.BroadcastsInDim S1x1x768 (![2] : Fin 1 → Fin S1x1x768.rank)
  bcast_S1x1x768_S4x64x768_0_1_2 : S1x1x768.BroadcastsInDim S4x64x768 (![0, 1, 2] : Fin 3 → Fin S4x64x768.rank)
  dot_S4x64x1536_S768x1536_S4x64x768_2_1_01_0_n_n_wf : DotDims.WF S4x64x1536 S768x1536 S4x64x768 [2] [1] [0, 1] [0] [] []

variable [Facts₀]

def dot_S4x64x1536_S768x1536_S4x64x768_2_1_01_0_n_n : DotDims S4x64x1536 S768x1536 S4x64x768 where
  lhsContracting := [2]
  rhsContracting := [1]
  lhsNonContracting := [0, 1]
  rhsNonContracting := [0]
  lhsBatch := []
  rhsBatch := []
  wf := dot_S4x64x1536_S768x1536_S4x64x768_2_1_01_0_n_n_wf

class Facts : Prop extends Facts₀ where

variable [Facts]
-- ==== Proof.PoolSpec.lean ====
/-
  The function both programs compute, index by index, on the extended reals, and the two regroupings that join them.

  For a document `n`, an entity `e` and a feature `d`, with `p l = mask n e l * doc n l d` for a position `l < 512`:
    * the pooled maximum   `max (b, p 0, …, p 511)`  (`b` the value the maximum starts from),
    * the pooled mean      `(p 0 + … + p 511) / lens n e`,
    * the row              `C k` = the pooled maximum at feature `k` for `k < 768`, the pooled mean at feature
                           `k - 768` for `768 ≤ k < 1536`,
    * the result           `Σ over k < 1536 of C k * W d k  +  bias d`.

  One program takes the maximum and the sum over all 512 positions at once; the other visits the positions in eight
  runs of 64, keeping a running maximum and a running sum. A maximum and a sum over the first `n + k` positions are the
  maximum and the sum over the first `n`, combined with those over the next `k`: only the associativity and
  commutativity of `max` and `+` (and `max b b = b`) are used, so nothing is asked of the entries — they may be infinite.
-/
import Idealize.ShloMosaic.PureOps.Ideal
import Idealize.ShloMosaic.Lib.ValueIdx

noncomputable section

namespace Cert.PoolSpec

open Idealize.ShloMosaic Idealize.ShloMosaic.ValueIdx

/-! ## A maximum and a sum over the first `n` terms of a sequence -/

/-- `max (b, g 0, …, g (n-1))`. -/
def maxTo (b : EReal) (g : ℕ → EReal) (n : ℕ) : EReal := (Finset.range n).fold max b g

/-- `g 0 + … + g (n-1)`. -/
def sumTo (g : ℕ → EReal) (n : ℕ) : EReal := ∑ l ∈ Finset.range n, g l

theorem maxTo_zero (b : EReal) (g : ℕ → EReal) : maxTo b g 0 = b := by
  simp [maxTo]

theorem sumTo_zero (g : ℕ → EReal) : sumTo g 0 = 0 := by
  simp [sumTo]

/-- A family on `Fin N` as a sequence (its value past `N` is never used). -/
def seq {N : ℕ} (f : Fin N → EReal) (l : ℕ) : EReal := if h : l < N then f ⟨l, h⟩ else 0

theorem seq_of_lt {N : ℕ} (f : Fin N → EReal) (l : ℕ) (h : l < N) : seq f l = f ⟨l, h⟩ := by
  rw [seq, dif_pos h]

/-- The running maximum after `k` more terms: the maximum so far against the maximum (from `b`) of the next `k`. -/
theorem maxTo_step (b : EReal) {N : ℕ} (f : Fin N → EReal) (n k : ℕ) (hnk : n + k ≤ N) :
    max (maxTo b (seq f) n) (Finset.univ.fold max b (fun r : Fin k => f ⟨n + r.val, by have := r.isLt; omega⟩))
      = maxTo b (seq f) (n + k) := by
  apply eq_of_forall_ge_iff
  intro c
  simp only [maxTo, max_le_iff, Finset.fold_max_le, Finset.mem_range, Finset.mem_univ, true_implies]
  constructor
  · rintro ⟨⟨hb, h1⟩, _, h2⟩
    refine ⟨hb, fun l hl => ?_⟩
    by_cases h : l < n
    · exact h1 l h
    · have h3 := h2 ⟨l - n, by omega⟩
      rw [seq_of_lt f l (by omega)]
      have e : (⟨l, by omega⟩ : Fin N) = ⟨n + (l - n), by omega⟩ := Fin.ext (by show l = n + (l - n); omega)
      rw [e]
      exact h3
  · rintro ⟨hb, h⟩
    refine ⟨⟨hb, fun l hl => h l (by omega)⟩, hb, fun r => ?_⟩
    have h3 := h (n + r.val) (by have := r.isLt; omega)
    rw [seq_of_lt f (n + r.val) (by have := r.isLt; omega)] at h3
    exact h3

/-- The running sum after `k` more terms. -/
theorem sumTo_step {N : ℕ} (f : Fin N → EReal) (n k : ℕ) (hnk : n + k ≤ N) :
    sumTo (seq f) n + ∑ r : Fin k, f ⟨n + r.val, by have := r.isLt; omega⟩ = sumTo (seq f) (n + k) := by
  unfold sumTo
  rw [Finset.sum_range_add, ← Fin.sum_univ_eq_sum_range (fun r => seq f (n + r)) k]
  refine congrArg (_ + ·) (Finset.sum_congr rfl fun r _ => ?_)
  exact (seq_of_lt f (n + r.val) (by have := r.isLt; omega)).symm

/-- The maximum over all of `Fin N` at once is the running maximum after `N` terms. -/
theorem fold_max_univ (b : EReal) {N : ℕ} (f : Fin N → EReal) : Finset.univ.fold max b f = maxTo b (seq f) N := by
  apply eq_of_forall_ge_iff
  intro c
  simp only [maxTo, Finset.fold_max_le, Finset.mem_range, Finset.mem_univ, true_implies]
  constructor
  · rintro ⟨hb, h⟩
    exact ⟨hb, fun l hl => by rw [seq_of_lt f l hl]; exact h _⟩
  · rintro ⟨hb, h⟩
    exact ⟨hb, fun x => by have h3 := h x.val x.isLt; rw [seq_of_lt f x.val x.isLt] at h3; exact h3⟩

/-- The sum over all of `Fin N` at once is the running sum after `N` terms. -/
theorem sum_univ {N : ℕ} (f : Fin N → EReal) : ∑ l, f l = sumTo (seq f) N := by
  unfold sumTo
  rw [← Fin.sum_univ_eq_sum_range (seq f) N]
  exact Finset.sum_congr rfl fun l _ => (seq_of_lt f l.val l.isLt).symm

/-! ## The pooled row and the result -/

/-- The value both programs start the maximum from: the float word of minus infinity, read as an extended real. It is
    the same word on both sides and is never evaluated. -/
abbrev maxSeed : EReal := Ideal.ofBits .f32 0xFF800000#32

abbrev DocIdx := (⟨3, ![4, 512, 768]⟩ : Shape).Idx
abbrev MaskIdx := (⟨3, ![4, 64, 512]⟩ : Shape).Idx
abbrev LensIdx := (⟨2, ![4, 64]⟩ : Shape).Idx
abbrev WIdx := (⟨2, ![768, 1536]⟩ : Shape).Idx
abbrev BiasIdx := (⟨1, ![768]⟩ : Shape).Idx
abbrev OutIdx := (⟨3, ![4, 64, 768]⟩ : Shape).Idx

/-- The masked entry at position `l`: `mask n e l * doc n l d`. -/
def term (doc : DocIdx → EReal) (mask : MaskIdx → EReal) (n : Fin 4) (e : Fin 64) (d : Fin 768) (l : Fin 512) : EReal :=
  mask (ix3 n e l) * doc (ix3 n l d)

/-- Entry `k` of the row of document `n`, entity `e`: the pooled maximum (from `b`) for `k < 768`, the pooled mean past it. -/
def rowAt (b : EReal) (doc : DocIdx → EReal) (mask : MaskIdx → EReal) (lens : LensIdx → EReal)
    (n : Fin 4) (e : Fin 64) (k : Fin 1536) : EReal :=
  if h : k.val < 768 then maxTo b (seq (term doc mask n e ⟨k.val, h⟩)) 512
  else Ideal.div (sumTo (seq (term doc mask n e ⟨k.val - 768, by have := k.isLt; omega⟩)) 512) (lens (ix2 n e))

/-- The result at `(n, e, d)`: the row against row `d` of `W`, plus the bias. -/
def resultAt (b : EReal) (doc : DocIdx → EReal) (mask : MaskIdx → EReal) (lens : LensIdx → EReal) (W : WIdx → EReal)
    (bias : BiasIdx → EReal) (n : Fin 4) (e : Fin 64) (d : Fin 768) : EReal :=
  (∑ k : Fin 1536, rowAt b doc mask lens n e k * W (ix2 d k)) + bias (ix1 d)

/-- The whole result array. -/
def result (b : EReal) (doc : DocIdx → EReal) (mask : MaskIdx → EReal) (lens : LensIdx → EReal) (W : WIdx → EReal)
    (bias : BiasIdx → EReal) : OutIdx → EReal :=
  fun i => resultAt b doc mask lens W bias (i 0) (i 1) (i 2)

end Cert.PoolSpec

end
-- ==== Proof.RefValue.lean ====
/-
  The reference, read index by index: its result array is `PoolSpec.result` of its arguments.

  The reference multiplies the mask and the document over all of `(n, e, l, d)`, takes the maximum and the sum over the
  position `l` in one reduction each, divides the sum by the entity's length, lays the two `[4, 64, 768]` arrays side by
  side along the last axis, contracts that axis of length 1536 against the rows of `W`, and adds the bias. Read at an
  index, each of these is the corresponding line of the specification.
-/
import proofs.«163588_j30296699306389_2_alg».proof.Proof.Gen.ReferenceIdeal.Read
import proofs.«163588_j30296699306389_2_alg».proof.Proof.PoolSpec
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
open Cert.PoolSpec

variable (x0 : S4x512x768.Idx → EReal) (x1 : S4x64x512.Idx → EReal) (x2 : S4x64.Idx → EReal)
  (x3 : S768x1536.Idx → EReal) (x4 : S768.Idx → EReal)

/-- The product array at `(n, e, l, d)` is `mask n e l * doc n l d`: both factors are copies along the axes they lack. -/
theorem prod_at (n : Fin 4) (e : Fin 64) (l : Fin 512) (d : Fin 768) :
    val_main_v4 (F := Ideal) x0 x1 (ix4 n e l d) = term x0 x1 n e d l := by
  rw [val_main_v4_apply, val_main_v2_apply, val_main_v0_apply, val_main_v3_apply, val_main_v1_apply]
  show x1 _ * x0 _ = x1 _ * x0 _
  refine congrArg₂ (· * ·) (congrArg x1 (funext fun a => Fin.ext ?_)) (congrArg x0 (funext fun a => Fin.ext ?_))
  · match a with | ⟨0, _⟩ => rfl | ⟨1, _⟩ => rfl | ⟨2, _⟩ => rfl
  · match a with | ⟨0, _⟩ => rfl | ⟨1, _⟩ => rfl | ⟨2, _⟩ => rfl

/-- The maximum over the position axis, at `(n, e, d)`: the running maximum after all 512 positions. -/
theorem max_at (n : Fin 4) (e : Fin 64) (d : Fin 768) :
    val_main_v5 (F := Ideal) x0 x1 (ix3 n e d) = maxTo maxSeed (seq (term x0 x1 n e d)) 512 := by
  unfold val_main_v5
  rw [Host.reduce_eq_fold_single FloatOps.maximumf _ _ reducesTo_S4x64x512x768_S4x64x768_d2 (by decide) h_S_,
    ← fold_max_univ]
  show Finset.fold max maxSeed _ _ = _
  refine Finset.fold_congr fun l _ => ?_
  refine (congrArg (val_main_v4 (F := Ideal) x0 x1) (funext fun a => Fin.ext ?_)).trans (prod_at x0 x1 n e l d)
  match a with | ⟨0, _⟩ => rfl | ⟨1, _⟩ => rfl | ⟨2, _⟩ => rfl | ⟨3, _⟩ => rfl

/-- The sum over the position axis divided by the entity's length, at `(n, e, d)`. -/
theorem mean_at (n : Fin 4) (e : Fin 64) (d : Fin 768) :
    val_main_v9 (F := Ideal) x0 x1 x2 (ix3 n e d) = Ideal.div (sumTo (seq (term x0 x1 n e d)) 512) (x2 (ix2 n e)) := by
  rw [val_main_v9_apply, val_main_v6_apply, val_main_v8_apply, val_main_v7_apply, val_main_cst_0_apply]
  show Ideal.div (Ideal.ofBits .f32 0x00000000#32 + _) (x2 _) = _
  rw [Ideal.ofBits_zero_f32, zero_add, ← sum_univ]
  refine congrArg₂ Ideal.div (Finset.sum_congr rfl fun l _ => ?_) (congrArg x2 (funext fun a => Fin.ext ?_))
  · refine (congrArg (val_main_v4 (F := Ideal) x0 x1) (funext fun a => Fin.ext ?_)).trans (prod_at x0 x1 n e l d)
    match a with | ⟨0, _⟩ => rfl | ⟨1, _⟩ => rfl | ⟨2, _⟩ => rfl | ⟨3, _⟩ => rfl
  · match a with | ⟨0, _⟩ => rfl | ⟨1, _⟩ => rfl

/-- The two arrays side by side along the last axis, at `(n, e, k)`: the specification's row. -/
theorem row_at (n : Fin 4) (e : Fin 64) (k : Fin 1536) :
    val_main_v10 (F := Ideal) x0 x1 x2 (ix3 n e k) = rowAt maxSeed x0 x1 x2 n e k := by
  unfold val_main_v10 rowAt
  by_cases hk : k.val < 768
  · rw [dif_pos hk]
    refine (concatenate_pair_apply_left 2 _ _ concatenates_S4x64x768_S4x64x768_S4x64x1536_d2 (ix3 n e k) rfl
      (ix3 n e (⟨k.val, hk⟩ : Fin 768)) (fun b => ?_)).trans (max_at x0 x1 n e ⟨k.val, hk⟩)
    match b with | ⟨0, _⟩ => rfl | ⟨1, _⟩ => rfl | ⟨2, _⟩ => rfl
  · rw [dif_neg hk]
    refine (concatenate_pair_apply_right 2 _ _ concatenates_S4x64x768_S4x64x768_S4x64x1536_d2 (ix3 n e k) rfl rfl
      (ix3 n e (⟨k.val - 768, by have := k.isLt; omega⟩ : Fin 768)) (fun b hb => ?_) ?_).trans
      (mean_at x0 x1 x2 n e ⟨k.val - 768, by have := k.isLt; omega⟩)
    · match b, hb with
      | ⟨0, _⟩, _ => rfl
      | ⟨1, _⟩, _ => rfl
      | ⟨2, _⟩, hb => exact absurd rfl hb
    · show (k.val - 768) + 768 = k.val
      omega

/-- The reference's last stage is the specification's result. -/
theorem ref_eq : val_main_v14 (F := Ideal) x0 x1 x2 x3 x4 = result maxSeed x0 x1 x2 x3 x4 := by
  funext i
  obtain ⟨n, e, d, rfl⟩ : ∃ (n : Fin 4) (e : Fin 64) (d : Fin 768), i = ix3 n e d := ⟨i 0, i 1, i 2, eq_ix3 i⟩
  rw [val_main_v14_apply, val_main_v11_apply, val_main_v13_apply, val_main_v12_apply]
  show (∑ k : Fin 1536, _ * _) + x4 _ = (∑ k : Fin 1536, rowAt maxSeed x0 x1 x2 n e k * x3 (ix2 d k)) + x4 (ix1 d)
  refine congrArg₂ (· + ·) (Finset.sum_congr rfl fun k _ => ?_) (congrArg x4 (funext fun a => Fin.ext ?_))
  · refine congrArg₂ (· * ·) ((congrArg (val_main_v10 (F := Ideal) x0 x1 x2) (funext fun a => Fin.ext ?_)).trans
      (row_at x0 x1 x2 n e k)) (congrArg x3 (funext fun a => Fin.ext ?_))
    · match a with | ⟨0, _⟩ => rfl | ⟨1, _⟩ => rfl | ⟨2, _⟩ => rfl
    · match a with | ⟨0, _⟩ => rfl | ⟨1, _⟩ => rfl
  · match a with | ⟨0, _⟩ => rfl

end Cert.ReferenceIdeal.RefValue

end
-- ==== Proof.LibColumnForms.lean ====
/-
  A column vector read at an index.

  Summing a matrix along its rows with the summed axis kept gives a column: the sums, an `[a]` vector, are laid out as
  `[a, 1]`, and the column is then copied along a new second axis to `[a, b]`. Entry `(i, j)` of the result is
  entry `i` of the vector, whatever `j`. The two lemmas below say this one layout step at a time, every index
  written by its coordinates.
-/
import Idealize.ShloMosaic.Lib.Pipeline.Value
import Idealize.ShloMosaic.Lib.ValueIdx

namespace Cert.ColumnForms

open Idealize.ShloMosaic Idealize.ShloMosaic.ValueIdx

variable {α : Type}

/-- A vector `[a]` laid out as a column `[a, 1]` reads, at `(i, u)`, the vector at `i`: the row-major position
    `i · 1 + u` of `(i, u)` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` copied along its unit axis to `[a, b]` reads, at `(i, j)`, the column at `(i, 0)`: the first
    coordinate is kept (also when `a = 1`, where it is `0` anyway), the second is the unit axis's only one. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnForms
-- ==== Proof.Payloads.lean ====
/-
  The kernel body's arithmetic, read at an index on the extended reals.

  At one grid point the body sees a tile of 64 positions: the transposed mask tile `mt r e` and the document tile
  `dc r d` (`r < 64` the position inside the tile).
    * It forms `mt r e * dc r d` over `(r, e, d)`.
    * The running maximum becomes `max (old, max over r (from the seed) of mt r e * dc r d)`.
    * The running sum becomes `old + Σ over r of mt r e * dc r d`.
    * At the last tile it divides the running sum by the entity's length, lays maximum and mean side by side
      (1536 entries), contracts them against row `d` of `W`, and adds `bias d`.
-/
import proofs.«163588_j30296699306389_2_alg».proof.Proof.Gen.KernelIdeal.Skeleton
import proofs.«163588_j30296699306389_2_alg».proof.Proof.PoolSpec
import proofs.«163588_j30296699306389_2_alg».proof.Proof.LibColumnForms
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payloads

open Cert.KernelIdeal Cert.KernelIdeal.Gen Idealize.ShloMosaic Idealize.ShloMosaic.ValueIdx
open Cert.PoolSpec Cert.ColumnForms

/-- The block the first tile stores into the running maximum: the seed everywhere. -/
theorem seed_apply (y : S64x768.Idx) : k0_pay1 (F := Ideal) y = maxSeed := by
  unfold k0_pay1
  exact congrFun (shapeCast_self _ _) y

/-- The block the first tile stores into the running sum: zero everywhere. -/
theorem zero_apply (y : S64x768.Idx) : k0_pay2 (F := Ideal) y = 0 := by
  unfold k0_pay2
  refine (congrFun (shapeCast_self _ _) y).trans ?_
  exact Ideal.ofBits_zero_f32

/-- The product tile at `(r, e, d)`: the mask tile at `(r, e)` times the document tile at `(r, d)`. -/
theorem prod_apply (v3 : Vec Ideal S1x64x64 .f32) (v5 : Vec Ideal S1x64x768 .f32) (r : Fin 64) (e : Fin 64) (d : Fin 768) :
    k0_pay3 (F := Ideal) v3 v5 (ix3 r e d) = v3 (ix3 (0 : Fin 1) r e) * v5 (ix3 (0 : Fin 1) r d) := by
  unfold k0_pay3
  show (broadcastTo S64x64x768 (shapeCast S64x64x1 (shapeCast S64x64 v3 _) _) _ (ix3 r e d))
    * (broadcastTo S64x64x768 (shapeCast S64x1x768 (shapeCast S64x768 v5 _) _) _ (ix3 r e d)) = _
  refine congrArg₂ (· * ·) ?_ ?_
  · refine (broadcastTo_apply _ _ (ix3 r e d) (ix3 r e (0 : Fin 1)) (fun a => ?_)).trans ?_
    · match a with | ⟨0, _⟩ => rfl | ⟨1, _⟩ => rfl | ⟨2, _⟩ => rfl
    refine (shapeCast_apply _ _ (ix3 r e (0 : Fin 1)) (ix2 r e) ?_).trans (shapeCast_1ab_ab_apply v3 _ r e)
    rw [Shape.rowMajor_val_two, Shape.rowMajor_val_three]
    show r.val * 64 + e.val = (r.val * 64 + e.val) * 1 + 0
    omega
  · refine (broadcastTo_apply _ _ (ix3 r e d) (ix3 r (0 : Fin 1) d) (fun a => ?_)).trans ?_
    · match a with | ⟨0, _⟩ => rfl | ⟨1, _⟩ => rfl | ⟨2, _⟩ => rfl
    refine (shapeCast_apply _ _ (ix3 r (0 : Fin 1) d) (ix2 r d) ?_).trans (shapeCast_1ab_ab_apply v5 _ r d)
    rw [Shape.rowMajor_val_two, Shape.rowMajor_val_three]
    show r.val * 768 + d.val = (r.val * 1 + 0) * 768 + d.val
    omega

/-- The column maximum of a `[64, 64, 768]` array over its first axis, from the seed, at `(e, d)`. -/
theorem col_max (src : FVec Ideal S64x64x768 .f32) (hφ : FKind.Formats .f32)
    (hacc : (0xFF800000#32 : BitVec 32) = FKind.maximumf.neutral .f32 hφ) (e : Fin 64) (d : Fin 768) :
    multiReduction (F := Ideal) .maximumf [0] S64x768 src 0xFF800000#32 reduces_S64x64x768_S64x768 hφ hacc (ix2 e d)
      = Finset.univ.fold max maxSeed (fun r : Fin 64 => src (ix3 r e d)) := by
  refine (Ideal.multiReduction_maximumf_single src 0xFF800000#32 reduces_S64x64x768_S64x768 hφ hacc (ix2 e d)).trans ?_
  show Finset.fold max maxSeed _ _ = _
  refine Finset.fold_congr fun r _ => congrArg src (funext fun a => Fin.ext ?_)
  match a with | ⟨0, _⟩ => rfl | ⟨1, _⟩ => rfl | ⟨2, _⟩ => rfl

/-- The column sum of a `[64, 64, 768]` array over its first axis at `(e, d)`. -/
theorem col_sum (src : FVec Ideal S64x64x768 .f32) (hφ : FKind.Formats .f32)
    (hacc : (0x00000000#32 : BitVec 32) = FKind.add.neutral .f32 hφ) (e : Fin 64) (d : Fin 768) :
    multiReduction (F := Ideal) .add [0] S64x768 src 0x00000000#32 reduces_S64x64x768_S64x768 hφ hacc (ix2 e d)
      = ∑ r : Fin 64, src (ix3 r e d) := by
  refine (Ideal.multiReduction_add_single src 0x00000000#32 reduces_S64x64x768_S64x768 hφ hacc (ix2 e d)).trans ?_
  refine Finset.sum_congr rfl fun r _ => congrArg src (funext fun a => Fin.ext ?_)
  match a with | ⟨0, _⟩ => rfl | ⟨1, _⟩ => rfl | ⟨2, _⟩ => rfl

/-- One step of the running maximum at `(e, d)`. -/
theorem max_step_apply (v3 : Vec Ideal S1x64x64 .f32) (v5 : Vec Ideal S1x64x768 .f32) (acc : Vec Ideal S64x768 .f32)
    (e : Fin 64) (d : Fin 768) :
    k0_pay4 (F := Ideal) v3 v5 acc (ix2 e d)
      = max (acc (ix2 e d)) (Finset.univ.fold max maxSeed (fun r : Fin 64 => v3 (ix3 (0 : Fin 1) r e) * v5 (ix3 (0 : Fin 1) r d))) := by
  unfold k0_pay4
  refine (congrFun (shapeCast_self _ _) (ix2 e d)).trans ?_
  refine congrArg (max (acc (ix2 e d))) ?_
  refine (col_max (k0_pay3 (F := Ideal) v3 v5) _ _ e d).trans ?_
  exact Finset.fold_congr fun r _ => prod_apply v3 v5 r e d

/-- One step of the running sum at `(e, d)`. -/
theorem sum_step_apply (v3 : Vec Ideal S1x64x64 .f32) (v5 : Vec Ideal S1x64x768 .f32) (acc : Vec Ideal S64x768 .f32)
    (e : Fin 64) (d : Fin 768) :
    k0_pay5 (F := Ideal) v3 v5 acc (ix2 e d)
      = acc (ix2 e d) + ∑ r : Fin 64, v3 (ix3 (0 : Fin 1) r e) * v5 (ix3 (0 : Fin 1) r d) := by
  unfold k0_pay5
  refine (congrFun (shapeCast_self _ _) (ix2 e d)).trans ?_
  refine congrArg (acc (ix2 e d) + ·) ?_
  refine (col_sum (k0_pay3 (F := Ideal) v3 v5) _ _ e d).trans ?_
  exact Finset.sum_congr rfl fun r _ => prod_apply v3 v5 r e d

/-! ## The last tile's final stage -/

/-- The dimensions of the body's matrix product: `[64, 1536]` against `[768, 1536]`, both contracted on their second axis. -/
abbrev mm : DotDims S64x1536 S768x1536 S64x768 := dot_S64x1536_S768x1536_S64x768_1_1_0_0_n_n

theorem mm_lhs0 (j : S64x768.Idx) (q : mm.contr.Idx) : (mm.lhsIdx j q 0).val = (j 0).val := by
  unfold DotDims.lhsIdx
  rw [dif_neg (show ¬(0 : Fin S64x1536.rank) ∈ mm.lhsBatch by decide), dif_pos (show (0 : Fin S64x1536.rank) ∈ mm.lhsNonContracting by decide)]
  rfl
theorem mm_lhs1 (j : S64x768.Idx) (q : mm.contr.Idx) : (mm.lhsIdx j q 1).val = (q ⟨0, by decide⟩).val :=
  mm.lhsIdx_val_of_single rfl j q
theorem mm_rhs0 (j : S64x768.Idx) (q : mm.contr.Idx) : (mm.rhsIdx j q 0).val = (j 1).val := by
  unfold DotDims.rhsIdx
  rw [dif_neg (show ¬(0 : Fin S768x1536.rank) ∈ mm.rhsBatch by decide), dif_pos (show (0 : Fin S768x1536.rank) ∈ mm.rhsNonContracting by decide)]
  rfl
theorem mm_rhs1 (j : S64x768.Idx) (q : mm.contr.Idx) : (mm.rhsIdx j q 1).val = (q ⟨0, by decide⟩).val :=
  mm.rhsIdx_val_of_single rfl j q

/-- The matrix product into a zero accumulator at `(e, d)`: row `e` of the left against row `d` of the right. -/
theorem matmul_at (lhs : FVec Ideal S64x1536 .f32) (rhs : FVec Ideal S768x1536 .f32) (e : Fin 64) (d : Fin 768) :
    matmul (F := Ideal) mm none lhs rhs (constant S64x768 .f32 0x00000000#32) (ix2 e d)
      = ∑ k : Fin 1536, lhs (ix2 e k) * rhs (ix2 d k) := by
  refine (Ideal.matmul_constant_zero_apply mm none lhs rhs (ix2 e d)).trans ?_
  rw [← Equiv.sum_comp (contrEquiv1 mm 1536 rfl rfl).symm]
  refine Finset.sum_congr rfl fun k _ => ?_
  have hk := contrEquiv1_symm_val mm 1536 rfl rfl k
  have el : mm.lhsIdx (ix2 e d) ((contrEquiv1 mm 1536 rfl rfl).symm k) = ix2 e k := funext fun a => Fin.ext (by
    match a with
    | ⟨0, _⟩ => exact mm_lhs0 _ _
    | ⟨1, _⟩ => exact (mm_lhs1 _ _).trans hk)
  have er : mm.rhsIdx (ix2 e d) ((contrEquiv1 mm 1536 rfl rfl).symm k) = ix2 d k := funext fun a => Fin.ext (by
    match a with
    | ⟨0, _⟩ => exact mm_rhs0 _ _
    | ⟨1, _⟩ => exact (mm_rhs1 _ _).trans hk)
  rw [el, er]

/-- Entry `k` of the row the final stage contracts: the maximum block for `k < 768`, past it the sum block divided by the
    entity's length (`lens` is the one row of lengths the body loaded, shape `[1, 64]`). -/
def rowOf (lens : Vec Ideal S1x64 .f32) (sm mx : Vec Ideal S64x768 .f32) (e : Fin 64) (k : Fin 1536) : EReal :=
  if h : k.val < 768 then mx (ix2 e (⟨k.val, h⟩ : Fin 768))
  else Ideal.div (sm (ix2 e (⟨k.val - 768, by have := k.isLt; omega⟩ : Fin 768))) (lens (ix2 (0 : Fin 1) e))

/-- The two blocks side by side, with the sum block divided by the lengths, at `(e, k)`. -/
theorem concat_at (lens : Vec Ideal S1x64 .f32) (sm mx : Vec Ideal S64x768 .f32) (e : Fin 64) (k : Fin 1536) :
    concatenate S64x1536 1 [⟨S64x768, mx⟩, ⟨S64x768, divf (F := Ideal) (φ := .f32) sm (broadcastTo S64x768 (shapeCast S64x1 (shapeCast S64 lens shapeCasts_S1x64_S64) shapeCasts_S64_S64x1) broadcasts_S64x1_S64x768)⟩]
        concatenates_S64x768_S64x768_S64x1536_d1 (ix2 e k)
      = rowOf lens sm mx e k := by
  unfold rowOf
  by_cases hk : k.val < 768
  · refine Eq.trans ?_ (dif_pos hk).symm
    refine concatenate_pair_apply_left 1 _ _ concatenates_S64x768_S64x768_S64x1536_d1 (ix2 e k) rfl
      (ix2 e (⟨k.val, hk⟩ : Fin 768)) (fun b => ?_)
    match b with | ⟨0, _⟩ => rfl | ⟨1, _⟩ => rfl
  · refine Eq.trans ?_ (dif_neg hk).symm
    refine (concatenate_pair_apply_right 1 _ _ concatenates_S64x768_S64x768_S64x1536_d1 (ix2 e k) rfl rfl
      (ix2 e (⟨k.val - 768, by have := k.isLt; omega⟩ : Fin 768)) (fun b hb => ?_) ?_).trans ?_
    · match b, hb with
      | ⟨0, _⟩, _ => rfl
      | ⟨1, _⟩, hb => exact absurd rfl hb
    · show (k.val - 768) + 768 = k.val
      omega
    · refine congrArg (Ideal.div (sm _)) ?_
      refine (broadcastTo_a1_ab_apply _ _ e _).trans ?_
      refine (shapeCast_a_a1_apply _ _ e (0 : Fin 1)).trans ?_
      exact shapeCast_1a_a_apply lens _ e

/-- The final stage at `(0, e, d)`: the row against row `d` of `W`, plus `bias d`. -/
theorem final_apply (lens : Vec Ideal S1x64 .f32) (sm mx : Vec Ideal S64x768 .f32) (w : Vec Ideal S768x1536 .f32)
    (bias : Vec Ideal S768 .f32) (u : Fin 1) (e : Fin 64) (d : Fin 768) :
    k0_pay6 (F := Ideal) lens sm mx w bias (ix3 u e d)
      = (∑ k : Fin 1536, rowOf lens sm mx e k * w (ix2 d k)) + bias (ix1 d) := by
  unfold k0_pay6
  refine (shapeCast_ab_1ab_apply _ _ u e d).trans ?_
  refine congrArg₂ (· + ·) ?_ ?_
  · refine (matmul_at _ w e d).trans (Finset.sum_congr rfl fun k _ => congrArg (· * w (ix2 d k)) ?_)
    exact concat_at lens sm mx e k
  · refine (broadcastTo_apply _ _ (ix2 e d) (ix2 (0 : Fin 1) d) (fun a => ?_)).trans (shapeCast_a_1a_apply bias _ (0 : Fin 1) d)
    match a with | ⟨0, _⟩ => rfl | ⟨1, _⟩ => rfl

end Cert.KernelIdeal.Payloads

end
-- ==== Proof.Pieces.lean ====
/-
  What one grid point's body leaves behind, as values.

  The body runs in one of three ways. At the first tile of a document it fills the running maximum with the seed and
  the running sum with zero, then does one step of each. At a middle tile it does one step of each over what the
  tile before left. At the last tile it does the same step and then writes the output block from the two
  accumulators it has just updated, the entity lengths of its document, `W` and the bias.

  Each lemma reads back the stores the body made (each store covers its whole buffer, so the last one is what is
  left) and names the result by the body's own arithmetic on the loaded blocks.
-/
import proofs.«163588_j30296699306389_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The first tile of a document -/

/-- The running maximum after the first tile: one step over the seed block. -/
theorem first_max (c : Dev nD) (i : grid0.Coords) (arg2 : Memref sig .tc .vmem S1x64x768 .f32) (harg2 : arg2.IsWhole) (arg3 : Memref sig .tc .vmem S1x64x64 .f32) (harg3 : arg3.IsWhole) (arg4 : Memref sig .tc .vmem S4x64 .f32) (harg4 : arg4.IsWhole) (arg5 : Memref sig .tc .vmem S768x1536 .f32) (harg5 : arg5.IsWhole) (arg6 : Memref sig .tc .vmem S768 .f32) (harg6 : arg6.IsWhole) (arg7 : Memref sig .tc .vmem S1x64x768 .f32) (harg7 : arg7.IsWhole) (arg8 : Memref sig .tc .vmem S64x768 .f32) (harg8 : arg8.IsWhole) (arg9 : Memref sig .tc .vmem S64x768 .f32) (harg9 : arg9.IsWhole) (hc0 : cond0_0 i) (hc1 : ¬cond0_1 i) (x0 : Vec F S1x64x768 .f32) (x1 : Vec F S1x64x64 .f32) (x2 : Vec F S4x64 .f32) (x3 : Vec F S768x1536 .f32) (x4 : Vec F S768 .f32) :
    sout0_A_0 c i arg2 harg2 arg3 harg3 arg4 harg4 arg5 harg5 arg6 harg6 arg7 harg7 arg8 harg8 arg9 harg9 hc0 hc1 x0 x1 x2 x3 x4 = k0_pay4 x1 x0 k0_pay1 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S64x768) hz2, View.readCov_unit_zero (S := S64x768) _ hz2]
  simp only [View.readAt_eq_ld, harg2.read_unread, harg3.read_unread, harg4.read_unread, harg5.read_unread, harg6.read_unread, harg8.read_unread, harg9.read_unread,
    View.ld_unit_zero (S := S1x64x64) hz3, View.ld_unit_zero (S := S1x64x768) hz3, View.ld_unit_zero (S := S64x768) hz2,
    View.ld_unit_zero (S := S768x1536) hz2, View.ld_unit_zero (S := S768) hz1]

/-- The running sum after the first tile: one step over the zero block. -/
theorem first_sum (c : Dev nD) (i : grid0.Coords) (arg2 : Memref sig .tc .vmem S1x64x768 .f32) (harg2 : arg2.IsWhole) (arg3 : Memref sig .tc .vmem S1x64x64 .f32) (harg3 : arg3.IsWhole) (arg4 : Memref sig .tc .vmem S4x64 .f32) (harg4 : arg4.IsWhole) (arg5 : Memref sig .tc .vmem S768x1536 .f32) (harg5 : arg5.IsWhole) (arg6 : Memref sig .tc .vmem S768 .f32) (harg6 : arg6.IsWhole) (arg7 : Memref sig .tc .vmem S1x64x768 .f32) (harg7 : arg7.IsWhole) (arg8 : Memref sig .tc .vmem S64x768 .f32) (harg8 : arg8.IsWhole) (arg9 : Memref sig .tc .vmem S64x768 .f32) (harg9 : arg9.IsWhole) (hc0 : cond0_0 i) (hc1 : ¬cond0_1 i) (x0 : Vec F S1x64x768 .f32) (x1 : Vec F S1x64x64 .f32) (x2 : Vec F S4x64 .f32) (x3 : Vec F S768x1536 .f32) (x4 : Vec F S768 .f32) :
    sout0_A_1 c i arg2 harg2 arg3 harg3 arg4 harg4 arg5 harg5 arg6 harg6 arg7 harg7 arg8 harg8 arg9 harg9 hc0 hc1 x0 x1 x2 x3 x4 = k0_pay5 x1 x0 k0_pay2 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S64x768) hz2, View.readCov_unit_zero (S := S64x768) _ hz2]
  simp only [View.readAt_eq_ld, harg2.read_unread, harg3.read_unread, harg4.read_unread, harg5.read_unread, harg6.read_unread, harg8.read_unread, harg9.read_unread,
    View.ld_unit_zero (S := S1x64x64) hz3, View.ld_unit_zero (S := S1x64x768) hz3, View.ld_unit_zero (S := S64x768) hz2,
    View.ld_unit_zero (S := S768x1536) hz2, View.ld_unit_zero (S := S768) hz1]

/-! ## A middle tile -/

/-- The running maximum after a middle tile: one step over what the tile before left (`xs0`). -/
theorem middle_max (c : Dev nD) (i : grid0.Coords) (arg2 : Memref sig .tc .vmem S1x64x768 .f32) (harg2 : arg2.IsWhole) (arg3 : Memref sig .tc .vmem S1x64x64 .f32) (harg3 : arg3.IsWhole) (arg4 : Memref sig .tc .vmem S4x64 .f32) (harg4 : arg4.IsWhole) (arg5 : Memref sig .tc .vmem S768x1536 .f32) (harg5 : arg5.IsWhole) (arg6 : Memref sig .tc .vmem S768 .f32) (harg6 : arg6.IsWhole) (arg7 : Memref sig .tc .vmem S1x64x768 .f32) (harg7 : arg7.IsWhole) (arg8 : Memref sig .tc .vmem S64x768 .f32) (harg8 : arg8.IsWhole) (arg9 : Memref sig .tc .vmem S64x768 .f32) (harg9 : arg9.IsWhole) (hc0 : ¬cond0_0 i) (hc1 : ¬cond0_1 i) (x0 : Vec F S1x64x768 .f32) (x1 : Vec F S1x64x64 .f32) (x2 : Vec F S4x64 .f32) (x3 : Vec F S768x1536 .f32) (x4 : Vec F S768 .f32) (xs0 : Vec F S64x768 .f32) (xs1 : Vec F S64x768 .f32) :
    sout0_B_0 c i arg2 harg2 arg3 harg3 arg4 harg4 arg5 harg5 arg6 harg6 arg7 harg7 arg8 harg8 arg9 harg9 hc0 hc1 x0 x1 x2 x3 x4 xs0 xs1 = k0_pay4 x1 x0 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 xs0 xs1)]
  unfold kernelRun0_B
  dsimp only
  rw [View.canon_unit_zero hz2]
  simp only [View.readAt_eq_ld, harg2.read_unread, harg3.read_unread, harg4.read_unread, harg5.read_unread, harg6.read_unread, harg8.read_unread, harg9.read_unread,
    View.ld_unit_zero (S := S1x64x64) hz3, View.ld_unit_zero (S := S1x64x768) hz3, View.ld_unit_zero (S := S64x768) hz2,
    View.ld_unit_zero (S := S768x1536) hz2, View.ld_unit_zero (S := S768) hz1]

/-- The running sum after a middle tile: one step over what the tile before left (`xs1`). -/
theorem middle_sum (c : Dev nD) (i : grid0.Coords) (arg2 : Memref sig .tc .vmem S1x64x768 .f32) (harg2 : arg2.IsWhole) (arg3 : Memref sig .tc .vmem S1x64x64 .f32) (harg3 : arg3.IsWhole) (arg4 : Memref sig .tc .vmem S4x64 .f32) (harg4 : arg4.IsWhole) (arg5 : Memref sig .tc .vmem S768x1536 .f32) (harg5 : arg5.IsWhole) (arg6 : Memref sig .tc .vmem S768 .f32) (harg6 : arg6.IsWhole) (arg7 : Memref sig .tc .vmem S1x64x768 .f32) (harg7 : arg7.IsWhole) (arg8 : Memref sig .tc .vmem S64x768 .f32) (harg8 : arg8.IsWhole) (arg9 : Memref sig .tc .vmem S64x768 .f32) (harg9 : arg9.IsWhole) (hc0 : ¬cond0_0 i) (hc1 : ¬cond0_1 i) (x0 : Vec F S1x64x768 .f32) (x1 : Vec F S1x64x64 .f32) (x2 : Vec F S4x64 .f32) (x3 : Vec F S768x1536 .f32) (x4 : Vec F S768 .f32) (xs0 : Vec F S64x768 .f32) (xs1 : Vec F S64x768 .f32) :
    sout0_B_1 c i arg2 harg2 arg3 harg3 arg4 harg4 arg5 harg5 arg6 harg6 arg7 harg7 arg8 harg8 arg9 harg9 hc0 hc1 x0 x1 x2 x3 x4 xs0 xs1 = k0_pay5 x1 x0 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 x4 xs0 xs1)]
  unfold kernelRun0_B
  dsimp only
  rw [View.canon_unit_zero hz2]
  simp only [View.readAt_eq_ld, harg2.read_unread, harg3.read_unread, harg4.read_unread, harg5.read_unread, harg6.read_unread, harg8.read_unread, harg9.read_unread,
    View.ld_unit_zero (S := S1x64x64) hz3, View.ld_unit_zero (S := S1x64x768) hz3, View.ld_unit_zero (S := S64x768) hz2,
    View.ld_unit_zero (S := S768x1536) hz2, View.ld_unit_zero (S := S768) hz1]

/-! ## The last tile of a document -/

/-- The output block the last tile writes: the final stage over the two accumulators after this tile's own step, the
    row of entity lengths the body loads (row `k0_off1 i` of the `[4, 64]` array), `W` and the bias. -/
theorem last_out (c : Dev nD) (i : grid0.Coords) (arg2 : Memref sig .tc .vmem S1x64x768 .f32) (harg2 : arg2.IsWhole) (arg3 : Memref sig .tc .vmem S1x64x64 .f32) (harg3 : arg3.IsWhole) (arg4 : Memref sig .tc .vmem S4x64 .f32) (harg4 : arg4.IsWhole) (arg5 : Memref sig .tc .vmem S768x1536 .f32) (harg5 : arg5.IsWhole) (arg6 : Memref sig .tc .vmem S768 .f32) (harg6 : arg6.IsWhole) (arg7 : Memref sig .tc .vmem S1x64x768 .f32) (harg7 : arg7.IsWhole) (arg8 : Memref sig .tc .vmem S64x768 .f32) (harg8 : arg8.IsWhole) (arg9 : Memref sig .tc .vmem S64x768 .f32) (harg9 : arg9.IsWhole) (hc0 : ¬cond0_0 i) (hc1 : cond0_1 i) (x0 : Vec F S1x64x768 .f32) (x1 : Vec F S1x64x64 .f32) (x2 : Vec F S4x64 .f32) (x3 : Vec F S768x1536 .f32) (x4 : Vec F S768 .f32) (xs0 : Vec F S64x768 .f32) (xs1 : Vec F S64x768 .f32) :
    out0_C_5 c i arg2 harg2 arg3 harg3 arg4 harg4 arg5 harg5 arg6 harg6 arg7 harg7 arg8 harg8 arg9 harg9 hc0 hc1 x0 x1 x2 x3 x4 xs0 xs1
      = k0_pay6 (View.ld x2 (Rect.unit (s := S4x64) (k0_off1 i) S1x64.size (k0_off1_inb i hc1)))
          (k0_pay5 x1 x0 xs1) (k0_pay4 x1 x0 xs0) x3 x4 := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero hz3, View.readCov_unit_zero (S := S64x768) _ hz2, View.readCov_unit_zero (S := S64x768) _ hz2]
  simp only [View.readAt_eq_ld, harg2.read_unread, harg3.read_unread, harg4.read_unread, harg5.read_unread, harg6.read_unread, harg8.read_unread, harg9.read_unread,
    View.ld_unit_zero (S := S1x64x64) hz3, View.ld_unit_zero (S := S1x64x768) hz3, View.ld_unit_zero (S := S64x768) hz2,
    View.ld_unit_zero (S := S768x1536) hz2, View.ld_unit_zero (S := S768) hz1]

end Cert.KernelIdeal.Pieces

end
-- ==== Proof.Blocks.lean ====
/-
  The blocks the body is handed at a grid point, read by coordinates of the argument arrays.

  The grid has 4 × 8 points; point `t` works on document `t / 8` and on tile `t % 8` of its 512 positions, that is on
  positions `64 * (t % 8) + r` for `r < 64`.
    * The document block at `(0, r, d)` is `doc (t / 8) (64 * (t % 8) + r) d`.
    * The mask reaches the kernel transposed to `[4, 512, 64]` by the host; its block at `(0, r, e)` is therefore
      `mask (t / 8) e (64 * (t % 8) + r)`.
    * The entity lengths, `W` and the bias come whole at every point.
-/
import proofs.«163588_j30296699306389_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The grid has 32 points. -/
theorem N_eq : cfg0.N = 32 := N_0

/-- The document of point `t`. -/
def docOf (t : Fin cfg0.N) : Fin 4 := ⟨t.val / 8, by have := lt_of_lt_of_eq t.isLt N_eq; omega⟩

/-- Position `r` of point `t`'s tile, among the 512 positions. -/
def posOf (t : Fin cfg0.N) (r : Fin 64) : Fin 512 := ⟨64 * (t.val % 8) + r.val, by have := r.isLt; omega⟩

/-- Where the windows' blocks sit, decided once over the grid. -/
theorem index_doc : ∀ t : Fin cfg0.N, win0_0.index t 0 = t.val / 8 ∧ win0_0.index t 1 = t.val % 8 ∧ win0_0.index t 2 = 0 :=
  (by decide +kernel : ∀ t : Fin grid0.N, win0_0.index t 0 = t.val / 8 ∧ win0_0.index t 1 = t.val % 8 ∧ win0_0.index t 2 = 0)
theorem index_mask : ∀ t : Fin cfg0.N, win0_1.index t 0 = t.val / 8 ∧ win0_1.index t 1 = t.val % 8 ∧ win0_1.index t 2 = 0 :=
  (by decide +kernel : ∀ t : Fin grid0.N, win0_1.index t 0 = t.val / 8 ∧ win0_1.index t 1 = t.val % 8 ∧ win0_1.index t 2 = 0)
theorem index_lens : ∀ t : Fin cfg0.N, win0_2.index t 0 = 0 ∧ win0_2.index t 1 = 0 :=
  (by decide +kernel : ∀ t : Fin grid0.N, win0_2.index t 0 = 0 ∧ win0_2.index t 1 = 0)
theorem index_w : ∀ t : Fin cfg0.N, win0_3.index t 0 = 0 ∧ win0_3.index t 1 = 0 :=
  (by decide +kernel : ∀ t : Fin grid0.N, win0_3.index t 0 = 0 ∧ win0_3.index t 1 = 0)
theorem index_bias : ∀ t : Fin cfg0.N, win0_4.index t 0 = 0 :=
  (by decide +kernel : ∀ t : Fin grid0.N, win0_4.index t 0 = 0)

/-- The mask as the region finds it: the host's transpose of the argument. -/
theorem maskT_eq (c : Dev nD) :
    (V m c main_v0 : S4x512x64.Idx → Elt F .f32)
      = transpose S4x512x64 [0, 2, 1] (m ((c : Thread nD τ).loc main_arg1)) transposes_S4x64x512_S4x512x64_0_2_1 := by
  dsimp only [Gen.V, Gen.hostOps0]
  after_results

/-- The document block. -/
theorem doc_block (c : Dev nD) (t : Fin cfg0.N) (r : Fin 64) (d : Fin 768) :
    (iblk m c 0 t : Vec F S1x64x768 .f32) (ix3 (0 : Fin 1) r d)
      = m ((c : Thread nD τ).loc main_arg0) (ix3 (docOf t) (posOf t r) d) := by
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1 + 1 * 0 = t.val / 8; rw [(index_doc t).1]; omega
  | ⟨1, _⟩ => show win0_0.index t 1 * 64 + 1 * r.val = 64 * (t.val % 8) + r.val; rw [(index_doc t).2.1]; omega
  | ⟨2, _⟩ => show win0_0.index t 2 * 768 + 1 * d.val = d.val; rw [(index_doc t).2.2]; omega

/-- The mask block: the transposed array's block, read back in the argument's own order of axes. -/
theorem mask_block (c : Dev nD) (t : Fin cfg0.N) (r : Fin 64) (e : Fin 64) :
    (iblk m c 1 t : Vec F S1x64x64 .f32) (ix3 (0 : Fin 1) r e)
      = m ((c : Thread nD τ).loc main_arg1) (ix3 (docOf t) e (posOf t r)) := by
  unfold iblk
  rw [View.read_apply]
  show V m c main_v0 _ = _
  rw [maskT_eq]
  refine Eq.trans (congrArg (transpose S4x512x64 [0, 2, 1] (m ((c : Thread nD τ).loc main_arg1)) transposes_S4x64x512_S4x512x64_0_2_1)
    (funext fun a => Fin.ext ?_)) (transpose_ix3_021_apply _ _ (docOf t) (posOf t r) e)
  match a with
  | ⟨0, _⟩ => show win0_1.index t 0 * 1 + 1 * 0 = t.val / 8; rw [(index_mask t).1]; omega
  | ⟨1, _⟩ => show win0_1.index t 1 * 64 + 1 * r.val = 64 * (t.val % 8) + r.val; rw [(index_mask t).2.1]; omega
  | ⟨2, _⟩ => show win0_1.index t 2 * 64 + 1 * e.val = e.val; rw [(index_mask t).2.2]; omega

/-- The entity lengths come whole. -/
theorem lens_block (c : Dev nD) (t : Fin cfg0.N) (n : Fin 4) (e : Fin 64) :
    (iblk m c 2 t : Vec F S4x64 .f32) (ix2 n e) = m ((c : Thread nD τ).loc main_arg2) (ix2 n e) := by
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t 0 * 4 + 1 * n.val = n.val; rw [(index_lens t).1]; omega
  | ⟨1, _⟩ => show win0_2.index t 1 * 64 + 1 * e.val = e.val; rw [(index_lens t).2]; omega

/-- `W` comes whole. -/
theorem w_block (c : Dev nD) (t : Fin cfg0.N) (d : Fin 768) (k : Fin 1536) :
    (iblk m c 3 t : Vec F S768x1536 .f32) (ix2 d k) = m ((c : Thread nD τ).loc main_arg3) (ix2 d k) := by
  unfold iblk
  rw [View.read_apply]
  show V m c main_arg3 _ = _
  rw [V_main_arg3]
  refine congrArg (m ((c : Thread nD τ).loc main_arg3)) (funext fun a => Fin.ext ?_)
  match a with
  | ⟨0, _⟩ => show win0_3.index t 0 * 768 + 1 * d.val = d.val; rw [(index_w t).1]; omega
  | ⟨1, _⟩ => show win0_3.index t 1 * 1536 + 1 * k.val = k.val; rw [(index_w t).2]; omega

/-- The bias comes whole. -/
theorem bias_block (c : Dev nD) (t : Fin cfg0.N) (d : Fin 768) :
    (iblk m c 4 t : Vec F S768 .f32) (ix1 d) = m ((c : Thread nD τ).loc main_arg4) (ix1 d) := by
  unfold iblk
  rw [View.read_apply]
  show V m c main_arg4 _ = _
  rw [V_main_arg4]
  refine congrArg (m ((c : Thread nD τ).loc main_arg4)) (funext fun a => Fin.ext ?_)
  match a with
  | ⟨0, _⟩ => show win0_4.index t 0 * 768 + 1 * d.val = d.val; rw [index_bias t]; omega

end Cert.KernelIdeal.Blocks

end
-- ==== Proof.Accum.lean ====
/-
  What the kernel's two accumulators hold after each grid point, and what the last tile of a document writes.

  Point `t` belongs to document `t / 8` and visits positions `64 * (t % 8) … 64 * (t % 8) + 63`. After a point that is
  not a document's last tile, the running maximum at `(e, d)` is the maximum (from the seed) of
  `mask n e l * doc n l d` over the positions `l < 64 * (t % 8 + 1)`, and the running sum is their sum: at a first tile
  because the step is taken over the seed and over zero, at a middle tile because the tile before left the same
  statement for `64 * (t % 8)` positions and the step adds this tile's 64. At the last tile the same step reaches all 512
  positions, and the block it writes out is the specification's result for document `t / 8`.
-/
import proofs.«163588_j30296699306389_2_alg».proof.Proof.Gen.KernelIdeal.Value
import proofs.«163588_j30296699306389_2_alg».proof.Proof.PoolSpec
import proofs.«163588_j30296699306389_2_alg».proof.Proof.Payloads
import proofs.«163588_j30296699306389_2_alg».proof.Proof.Pieces
import proofs.«163588_j30296699306389_2_alg».proof.Proof.Blocks

noncomputable section

namespace Cert.KernelIdeal.Accum

open Cert.KernelIdeal Cert.KernelIdeal.Gen Idealize.ShloMosaic Idealize.ShloMosaic.TcCoe Idealize.SL.Sem
open Idealize.ShloMosaic.ValueIdx Cert.PoolSpec Cert.KernelIdeal.Blocks Cert.KernelIdeal.Payloads

variable (m : (ℓ : Loc nD τ sig) → Buf (Elt Ideal) ℓ)

/-- The five argument arrays on core `c`, as functions of their indices. -/
abbrev docA (c : Dev nD) : DocIdx → EReal := m ((c : Thread nD τ).loc main_arg0)
abbrev maskA (c : Dev nD) : MaskIdx → EReal := m ((c : Thread nD τ).loc main_arg1)
abbrev lensA (c : Dev nD) : LensIdx → EReal := m ((c : Thread nD τ).loc main_arg2)
abbrev wA (c : Dev nD) : WIdx → EReal := m ((c : Thread nD τ).loc main_arg3)
abbrev biasA (c : Dev nD) : BiasIdx → EReal := m ((c : Thread nD τ).loc main_arg4)

/-! ## The accumulators after a point, as the body's arithmetic on the point's blocks -/

/-- After a first tile. -/
theorem after_first (c : Dev nD) (t : Fin cfg0.N) (h0 : t.val % 8 = 0) (h1 : ¬t.val % 8 = 7) :
    (outsAt0 m c t.val t.isLt).2.1 = k0_pay4 (F := Ideal) (iblk m c 1 t) (iblk m c 0 t) (k0_pay1 (F := Ideal))
    ∧ (outsAt0 m c t.val t.isLt).2.2 = k0_pay5 (F := Ideal) (iblk m c 1 t) (iblk m c 0 t) (k0_pay2 (F := Ideal)) := by
  rw [outsAt0_A m c t h0 h1]
  dsimp only
  exact ⟨Pieces.first_max (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t),
    Pieces.first_sum (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)⟩

/-- After a middle tile, over what the point before left. -/
theorem after_middle (c : Dev nD) (t : Fin cfg0.N) (h0 : ¬t.val % 8 = 0) (h1 : ¬t.val % 8 = 7) :
    (outsAt0 m c t.val t.isLt).2.1 = k0_pay4 (F := Ideal) (iblk m c 1 t) (iblk m c 0 t) (outsAt0 m c (t.val - 1) (Nat.lt_of_le_of_lt (Nat.sub_le _ _) t.isLt)).2.1
    ∧ (outsAt0 m c t.val t.isLt).2.2 = k0_pay5 (F := Ideal) (iblk m c 1 t) (iblk m c 0 t) (outsAt0 m c (t.val - 1) (Nat.lt_of_le_of_lt (Nat.sub_le _ _) t.isLt)).2.2 := by
  rw [outsAt0_B m c t h0 h1]
  dsimp only
  exact ⟨Pieces.middle_max (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2,
    Pieces.middle_sum (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2⟩

/-- The output block a last tile writes, over what the point before left. -/
theorem after_last (c : Dev nD) (t : Fin cfg0.N) (h0 : ¬t.val % 8 = 0) (h1 : t.val % 8 = 7) :
    (outsAt0 m c t.val t.isLt).1
      = k0_pay6 (F := Ideal) (View.ld (iblk m c 2 t : Vec Ideal S4x64 .f32)
            (Rect.unit (s := S4x64) (k0_off1 (grid0.coords t)) S1x64.size (k0_off1_inb (grid0.coords t) ((hcond0_1 t).mpr h1))))
          (k0_pay5 (F := Ideal) (iblk m c 1 t) (iblk m c 0 t) (outsAt0 m c (t.val - 1) (Nat.lt_of_le_of_lt (Nat.sub_le _ _) t.isLt)).2.2)
          (k0_pay4 (F := Ideal) (iblk m c 1 t) (iblk m c 0 t) (outsAt0 m c (t.val - 1) (Nat.lt_of_le_of_lt (Nat.sub_le _ _) t.isLt)).2.1)
          (iblk m c 3 t) (iblk m c 4 t) := by
  rw [outsAt0_C m c t h0 h1]
  dsimp only
  exact Pieces.last_out (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2

/-! ## One step, at an index -/

/-- The tile's products are the specification's masked entries at the tile's positions (`mt`, `dc` the point's mask and
    document blocks). -/
theorem tile_term (c : Dev nD) (t : Fin cfg0.N) (e : Fin 64) (d : Fin 768) (r : Fin 64)
    (mt : Vec Ideal S1x64x64 .f32) (dc : Vec Ideal S1x64x768 .f32) (hmt : mt = iblk m c 1 t) (hdc : dc = iblk m c 0 t) :
    mt (ix3 (0 : Fin 1) r e) * dc (ix3 (0 : Fin 1) r d) = term (docA m c) (maskA m c) (docOf t) e d (posOf t r) := by
  subst hmt hdc
  refine congrArg₂ (· * ·) ?_ ?_
  · exact mask_block m c t r e
  · exact doc_block m c t r d

/-- One step of the running maximum: from the first `64 * (t % 8)` positions to the first `64 * (t % 8 + 1)`. -/
theorem step_max (c : Dev nD) (t : Fin cfg0.N) (e : Fin 64) (d : Fin 768) (acc : Vec Ideal S64x768 .f32)
    (hacc : acc (ix2 e d) = maxTo maxSeed (seq (term (docA m c) (maskA m c) (docOf t) e d)) (64 * (t.val % 8))) :
    k0_pay4 (F := Ideal) (iblk m c 1 t) (iblk m c 0 t) acc (ix2 e d)
      = maxTo maxSeed (seq (term (docA m c) (maskA m c) (docOf t) e d)) (64 * (t.val % 8 + 1)) := by
  refine (max_step_apply _ _ acc e d).trans ?_
  rw [hacc, show 64 * (t.val % 8 + 1) = 64 * (t.val % 8) + 64 by omega,
    ← maxTo_step maxSeed (term (docA m c) (maskA m c) (docOf t) e d) (64 * (t.val % 8)) 64 (by omega)]
  refine congrArg (max _) (Finset.fold_congr fun r _ => ?_)
  exact tile_term m c t e d r _ _ rfl rfl

/-- One step of the running sum. -/
theorem step_sum (c : Dev nD) (t : Fin cfg0.N) (e : Fin 64) (d : Fin 768) (acc : Vec Ideal S64x768 .f32)
    (hacc : acc (ix2 e d) = sumTo (seq (term (docA m c) (maskA m c) (docOf t) e d)) (64 * (t.val % 8))) :
    k0_pay5 (F := Ideal) (iblk m c 1 t) (iblk m c 0 t) acc (ix2 e d)
      = sumTo (seq (term (docA m c) (maskA m c) (docOf t) e d)) (64 * (t.val % 8 + 1)) := by
  refine (sum_step_apply _ _ acc e d).trans ?_
  rw [hacc, show 64 * (t.val % 8 + 1) = 64 * (t.val % 8) + 64 by omega,
    ← sumTo_step (term (docA m c) (maskA m c) (docOf t) e d) (64 * (t.val % 8)) 64 (by omega)]
  refine congrArg (_ + ·) (Finset.sum_congr rfl fun r _ => ?_)
  exact tile_term m c t e d r _ _ rfl rfl

/-! ## The invariant -/

/-- After any point that is not a last tile, the accumulators hold the running maximum and sum of the point's document
    over the positions visited so far. -/
theorem running (c : Dev nD) : ∀ (n : ℕ) (h : n < cfg0.N), n % 8 ≠ 7 → ∀ (e : Fin 64) (d : Fin 768),
    (outsAt0 m c n h).2.1 (ix2 e d)
        = maxTo maxSeed (seq (term (docA m c) (maskA m c) (docOf ⟨n, h⟩) e d)) (64 * (n % 8 + 1))
    ∧ (outsAt0 m c n h).2.2 (ix2 e d)
        = sumTo (seq (term (docA m c) (maskA m c) (docOf ⟨n, h⟩) e d)) (64 * (n % 8 + 1)) := by
  intro n
  induction n with
  | zero =>
    intro h _ e d
    have hA := after_first m c ⟨0, h⟩ rfl (by show ¬(0 % 8 = 7); decide)
    refine ⟨(congrFun hA.1 (ix2 e d)).trans ?_, (congrFun hA.2 (ix2 e d)).trans ?_⟩
    · exact step_max m c ⟨0, h⟩ e d _ ((Payloads.seed_apply _).trans (maxTo_zero _ _).symm)
    · exact step_sum m c ⟨0, h⟩ e d _ ((Payloads.zero_apply _).trans (sumTo_zero _).symm)
  | succ n ih =>
    intro h h7 e d
    have hN : n + 1 < 32 := lt_of_lt_of_eq h N_eq
    by_cases h0 : (n + 1) % 8 = 0
    · have hA := after_first m c ⟨n + 1, h⟩ h0 h7
      have hz : 64 * ((n + 1) % 8) = 0 := by omega
      refine ⟨(congrFun hA.1 (ix2 e d)).trans ?_, (congrFun hA.2 (ix2 e d)).trans ?_⟩
      · exact step_max m c ⟨n + 1, h⟩ e d _ ((Payloads.seed_apply _).trans (by rw [hz]; exact (maxTo_zero _ _).symm))
      · exact step_sum m c ⟨n + 1, h⟩ e d _ ((Payloads.zero_apply _).trans (by rw [hz]; exact (sumTo_zero _).symm))
    · have hB := after_middle m c ⟨n + 1, h⟩ h0 h7
      have hd : docOf ⟨n, Nat.lt_of_succ_lt h⟩ = docOf ⟨n + 1, h⟩ := Fin.ext (by show n / 8 = (n + 1) / 8; omega)
      have hj : 64 * (n % 8 + 1) = 64 * ((n + 1) % 8) := by omega
      obtain ⟨ih1, ih2⟩ := ih (Nat.lt_of_succ_lt h) (by omega) e d
      rw [hd, hj] at ih1 ih2
      refine ⟨(congrFun hB.1 (ix2 e d)).trans ?_, (congrFun hB.2 (ix2 e d)).trans ?_⟩
      · exact step_max m c ⟨n + 1, h⟩ e d _ ih1
      · exact step_sum m c ⟨n + 1, h⟩ e d _ ih2

end Cert.KernelIdeal.Accum

end
-- ==== Proof.KernelValue.lean ====
/-
  The kernel's result array is `PoolSpec.result` of its arguments.

  Only a document's last tile (the points `t` with `t % 8 = 7`) writes the output block back, and block `t / 8` of the
  `[4, 64, 768]` result is all of document `t / 8`. At such a point the tile before has left the running maximum and sum
  over 448 positions; the body's own step brings them to all 512, and the final stage divides the sum by the
  entity's length (row `t / 8` of the lengths), joins maximum and mean, contracts with `W` and adds the bias: the
  specification's result for document `t / 8`. The four last tiles cover the four documents, so the whole array
  is the specification's result.
-/
import proofs.«163588_j30296699306389_2_alg».proof.Proof.Accum

noncomputable section

namespace Cert.KernelIdeal.KernelValue

open Cert.KernelIdeal Cert.KernelIdeal.Gen Idealize.ShloMosaic Idealize.ShloMosaic.TcCoe Idealize.SL.Sem
open Idealize.ShloMosaic.ValueIdx Cert.PoolSpec Cert.KernelIdeal.Blocks Cert.KernelIdeal.Payloads Cert.KernelIdeal.Accum
open Idealize.ShloMosaic.Pipeline (Dat)

variable (m : (ℓ : Loc nD τ sig) → Buf (Elt Ideal) ℓ) (ρ : Dev nD → PrngReg)

/-- The specification's result array on core `c`. -/
abbrev spec (c : Dev nD) : OutIdx → EReal :=
  result maxSeed (docA m c) (maskA m c) (lensA m c) (wA m c) (biasA m c)

/-- The row of entity lengths a last tile loads is row `t / 8`, decided over the grid. -/
theorem lens_row : ∀ t : Fin cfg0.N, k0_off1 (grid0.coords t) 0 = t.val / 8 ∧ k0_off1 (grid0.coords t) 1 = 0 :=
  (by decide +kernel : ∀ t : Fin grid0.N, k0_off1 (grid0.coords t) 0 = t.val / 8 ∧ k0_off1 (grid0.coords t) 1 = 0)

/-- Where the output's block sits, decided over the grid. -/
theorem index_out : ∀ t : Fin cfg0.N, win0_5.index t 0 = t.val / 8 ∧ win0_5.index t 1 = 0 ∧ win0_5.index t 2 = 0 :=
  (by decide +kernel : ∀ t : Fin grid0.N, win0_5.index t 0 = t.val / 8 ∧ win0_5.index t 1 = 0 ∧ win0_5.index t 2 = 0)

/-- The loaded row of lengths at `(0, e)` is `lens (t / 8) e`. -/
theorem lens_at (c : Dev nD) (t : Fin cfg0.N) (h1 : t.val % 8 = 7) (e : Fin 64) :
    View.ld (iblk m c 2 t : Vec Ideal S4x64 .f32)
        (Rect.unit (s := S4x64) (k0_off1 (grid0.coords t)) S1x64.size (k0_off1_inb (grid0.coords t) ((hcond0_1 t).mpr h1)))
        (ix2 (0 : Fin 1) e)
      = lensA m c (ix2 (docOf t) e) := by
  refine Eq.trans (congrArg (iblk m c 2 t : Vec Ideal S4x64 .f32) (funext fun a => Fin.ext ?_)) (lens_block m c t (docOf t) e)
  match a with
  | ⟨0, _⟩ => show k0_off1 (grid0.coords t) 0 + 1 * 0 = t.val / 8; rw [(lens_row t).1]; omega
  | ⟨1, _⟩ => show k0_off1 (grid0.coords t) 1 + 1 * e.val = e.val; rw [(lens_row t).2]; omega

/-- The block a last tile writes, at `(0, e, d)`: the specification's result for the tile's document. -/
theorem last_block (c : Dev nD) (t : Fin cfg0.N) (h7 : t.val % 8 = 7) (u : Fin 1) (e : Fin 64) (d : Fin 768) :
    (outsAt0 m c t.val t.isLt).1 (ix3 u e d)
      = resultAt maxSeed (docA m c) (maskA m c) (lensA m c) (wA m c) (biasA m c) (docOf t) e d := by
  have hN : t.val < 32 := lt_of_lt_of_eq t.isLt N_eq
  have h0 : ¬t.val % 8 = 0 := by omega
  have hlt : t.val - 1 < cfg0.N := Nat.lt_of_le_of_lt (Nat.sub_le _ _) t.isLt
  have hd : docOf ⟨t.val - 1, hlt⟩ = docOf t := Fin.ext (by show (t.val - 1) / 8 = t.val / 8; omega)
  have hj : 64 * ((t.val - 1) % 8 + 1) = 64 * (t.val % 8) := by omega
  have h512 : 64 * (t.val % 8 + 1) = 512 := by omega
  refine (congrFun (after_last m c t h0 h7) (ix3 u e d)).trans ?_
  refine (final_apply _ _ _ _ _ u e d).trans ?_
  unfold resultAt
  refine congrArg₂ (· + ·) (Finset.sum_congr rfl fun k _ => congrArg₂ (· * ·) ?_ (w_block m c t d k)) (bias_block m c t d)
  unfold rowOf rowAt
  by_cases hk : k.val < 768
  · rw [dif_pos hk, dif_pos hk]
    obtain ⟨ih1, -⟩ := running m c (t.val - 1) hlt (by omega) e ⟨k.val, hk⟩
    rw [hd, hj] at ih1
    have hs := step_max m c t e ⟨k.val, hk⟩ _ ih1
    rw [h512] at hs
    exact hs
  · rw [dif_neg hk, dif_neg hk]
    obtain ⟨-, ih2⟩ := running m c (t.val - 1) hlt (by omega) e ⟨k.val - 768, by have := k.isLt; omega⟩
    rw [hd, hj] at ih2
    have hs := step_sum m c t e ⟨k.val - 768, by have := k.isLt; omega⟩ _ ih2
    rw [h512] at hs
    exact congrArg₂ Ideal.div hs (lens_at m c t h7 e)

/-- What a last tile writes back is its block of the specification's result. -/
theorem flushed_eq (c : Dev nD) (t : Fin cfg0.N) (hf : (cfg0.win 5).flush t = true) :
    (dats m 0 c).flushed 5 t = ((cfg0.win 5).blk t).view.read (Elt Ideal) (spec m c) := by
  have h7 : t.val % 8 = 7 := (flush0_5 t).mp hf
  rw [Value.flushed5]
  funext y
  obtain ⟨u, e, d, rfl⟩ : ∃ (u : Fin 1) (e : Fin 64) (d : Fin 768), y = ix3 u e d := ⟨y 0, y 1, y 2, eq_ix3 y⟩
  show (outsAt0 m c t.val t.isLt).1 (ix3 u e d) = spec m c (((cfg0.win 5).blk t).view.emb (ix3 u e d))
  have hemb : ((cfg0.win 5).blk t).view.emb (ix3 u e d) = ix3 (docOf t) e d := funext fun a => Fin.ext (by
    have hu : u.val = 0 := by omega
    match a with
    | ⟨0, _⟩ => show win0_5.index t 0 * 1 + 1 * u.val = t.val / 8; rw [(index_out t).1]; omega
    | ⟨1, _⟩ => show win0_5.index t 1 * 64 + 1 * e.val = e.val; rw [(index_out t).2.1]; omega
    | ⟨2, _⟩ => show win0_5.index t 2 * 768 + 1 * d.val = d.val; rw [(index_out t).2.2]; omega)
  refine Eq.trans ?_ (congrArg (spec m c) hemb).symm
  exact last_block m c t h7 u e d

/-- An index of the result is in point `t`'s block iff each coordinate is in the block's range on its axis. -/
theorem mem_blk (t : Fin cfg0.N) (i : S4x64x768.Idx) :
    i ∈ ((cfg0.win 5).blk t).view.set
      ↔ ∀ a : Fin 3, win0_5.index t a * S1x64x768.size a ≤ (i a).val ∧ (i a).val < win0_5.index t a * S1x64x768.size a + S1x64x768.size a := by
  show i ∈ ((View.whole main_v1).slice (win0_5.rect t)).set ↔ _
  rw [View.set_slice_whole, Rect.mem_set_unit]
  exact Iff.rfl

/-- The result array after the run is the specification's result: document `n` is covered by the last tile `8 n + 7`. -/
theorem final (c : Dev nD) : (dats m 0 c).arrAt 5 cfg0.N = spec m c :=
  (dats m 0 c).arrAt_eq_of_cover 5 (spec m c) (flushed_eq m c) fun i => by
    have hi0 : (i 0).val < 4 := (i 0).isLt
    have hi1 : (i 1).val < 64 := (i 1).isLt
    have hi2 : (i 2).val < 768 := (i 2).isLt
    have hlt : 8 * (i 0).val + 7 < cfg0.N := lt_of_lt_of_eq (by omega) N_eq.symm
    have hx := index_out ⟨8 * (i 0).val + 7, hlt⟩
    have hx0 : win0_5.index ⟨8 * (i 0).val + 7, hlt⟩ 0 = (i 0).val :=
      hx.1.trans (by show (8 * (i 0).val + 7) / 8 = (i 0).val; omega)
    refine ⟨⟨8 * (i 0).val + 7, hlt⟩, (flush0_5 _).mpr (by show (8 * (i 0).val + 7) % 8 = 7; omega), ?_⟩
    rw [mem_blk]
    intro a
    match a with
    | ⟨0, _⟩ =>
      show win0_5.index ⟨8 * (i 0).val + 7, hlt⟩ 0 * 1 ≤ (i 0).val ∧ (i 0).val < win0_5.index ⟨8 * (i 0).val + 7, hlt⟩ 0 * 1 + 1
      rw [hx0]; omega
    | ⟨1, _⟩ =>
      show win0_5.index ⟨8 * (i 0).val + 7, hlt⟩ 1 * 64 ≤ (i 1).val ∧ (i 1).val < win0_5.index ⟨8 * (i 0).val + 7, hlt⟩ 1 * 64 + 64
      rw [hx.2.1]; omega
    | ⟨2, _⟩ =>
      show win0_5.index ⟨8 * (i 0).val + 7, hlt⟩ 2 * 768 ≤ (i 2).val ∧ (i 2).val < win0_5.index ⟨8 * (i 0).val + 7, hlt⟩ 2 * 768 + 768
      rw [hx.2.2]; omega

/-- The kernel's run: the result array ends at the specification's result, the arguments unchanged. -/
theorem run : θ_run defs (onTc (τ := τ) (main (F := Ideal))) ⟨m, fun _ => 0, ρ⟩ fun r => ∀ c : Dev nD,
      r.2.mem ((c : Thread nD τ).loc main_v1) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.KernelValue

end
-- ==== Proof.lean ====
/-
  The pooled linear layer: for each document `n`, entity `e` and output feature `d`,

      out n e d = Σ over k < 1536 of C n e k * W d k + bias d,

  where the row `C n e` is the maximum over the 512 positions `l` of `mask n e l * doc n l k` for `k < 768`, and the
  sum over `l` of `mask n e l * doc n l (k - 768)` divided by `lens n e` for `768 ≤ k`.

  The reference takes the maximum and the sum over all 512 positions in one reduction each. The kernel visits the
  positions of a document in eight tiles of 64, carrying a running maximum (started from the float word of minus
  infinity) and a running sum (started from zero) from tile to tile, and does the division, the contraction with `W` and
  the bias at the last tile. On the extended reals the two are the same function of the arguments: a maximum and a sum
  over 512 terms are the maximum and the sum of eight runs of 64 (associativity and commutativity of `max` and `+`,
  and `max b b = b` for the starting value, which both programs share and which is never evaluated); the division, the
  side-by-side layout, the contraction and the bias are the same operations on both sides. Nothing is asked of the
  entries, so the finiteness of the inputs is not used.

  The modules: `PoolSpec` (the function, and the run-by-run regrouping), `RefValue` (the reference is that function),
  `Payloads` (the kernel body's arithmetic at an index), `Pieces` (what each kind of tile leaves behind), `Blocks` (the
  blocks a tile is handed, by coordinates), `Accum` (the accumulators after each tile, by induction on the tile),
  `KernelValue` (the last tile's block and the whole result array). The kernel's idealization rewrote nothing, so
  that conjunct is `True`.
-/
import proofs.«163588_j30296699306389_2_alg».proof.Defs
import proofs.«163588_j30296699306389_2_alg».proof.Proof.Gen.Kernel
import proofs.«163588_j30296699306389_2_alg».proof.Proof.Gen.Kernel.Frame
import proofs.«163588_j30296699306389_2_alg».proof.Proof.Gen.KernelIdeal
import proofs.«163588_j30296699306389_2_alg».proof.Proof.Gen.KernelIdeal.Frame
import proofs.«163588_j30296699306389_2_alg».proof.Proof.Gen.KernelIdeal.Value
import proofs.«163588_j30296699306389_2_alg».proof.Proof.Gen.ReferenceIdeal
import proofs.«163588_j30296699306389_2_alg».proof.Proof.Gen.ReferenceIdeal.Run
import proofs.«163588_j30296699306389_2_alg».proof.Proof.Gen.ReferenceIdeal.Read
import proofs.«163588_j30296699306389_2_alg».proof.Proof.Gen.Pre_finite_inputs
import proofs.«163588_j30296699306389_2_alg».proof.Proof.PoolSpec
import proofs.«163588_j30296699306389_2_alg».proof.Proof.RefValue
import proofs.«163588_j30296699306389_2_alg».proof.Proof.KernelValue

noncomputable section

namespace Cert.Proof

open Idealize.ShloMosaic Idealize.SL.Sem

/-- The word-level kernel runs and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's run, with the result forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both programs end with the specification's result of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.KernelValue.spec m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.ref_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
